-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x4096 : Shape := ⟨2, ![4096, 4096]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S32x4096 .f32) (main_arg1 : FVec F S4096x4096 .f32) (main_arg2 : FVec F S4096x4096 .f32) (main_arg3 : FVec F S4096x4096 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S32x4096 : Shape := ⟨2, ![32, 4096]⟩
abbrev S4096x4096 : Shape := ⟨2, ![4096, 4096]⟩
abbrev S_ : Shape := ⟨0, ![]⟩
abbrev S32x32 : Shape := ⟨2, ![32, 32]⟩
abbrev S4096x256 : Shape := ⟨2, ![4096, 256]⟩
abbrev S32x256 : Shape := ⟨2, ![32, 256]⟩
abbrev S32 : Shape := ⟨1, ![32]⟩
abbrev S32x1 : Shape := ⟨2, ![32, 1]⟩

abbrev nBuf : Space → Nat
  | .hbm => 25
  | .vmem => 18
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .i1⟩
  | .hbm, ⟨5, _⟩ => ⟨S32x32, .i1⟩
  | .hbm, ⟨6, _⟩ => ⟨S32x32, .i32⟩
  | .hbm, ⟨7, _⟩ => ⟨S_, .i32⟩
  | .hbm, ⟨8, _⟩ => ⟨S32x32, .i32⟩
  | .hbm, ⟨9, _⟩ => ⟨S32x32, .i32⟩
  | .hbm, ⟨10, _⟩ => ⟨S32x32, .i32⟩
  | .hbm, ⟨11, _⟩ => ⟨S32x32, .i1⟩
  | .hbm, ⟨12, _⟩ => ⟨S_, .i1⟩
  | .hbm, ⟨13, _⟩ => ⟨S32x32, .i1⟩
  | .hbm, ⟨14, _⟩ => ⟨S32x32, .i1⟩
  | .hbm, ⟨15, _⟩ => ⟨S_, .f32⟩
  | .hbm, ⟨16, _⟩ => ⟨S_, .f32⟩
  | .hbm, ⟨17, _⟩ => ⟨S32x32, .f32⟩
  | .hbm, ⟨18, _⟩ => ⟨S32x32, .f32⟩
  | .hbm, ⟨19, _⟩ => ⟨S32x32, .f32⟩
  | .hbm, ⟨20, _⟩ => ⟨S32x32, .f32⟩
  | .hbm, ⟨21, _⟩ => ⟨S32x4096, .f32⟩
  | .hbm, ⟨22, _⟩ => ⟨S32x4096, .f32⟩
  | .hbm, ⟨23, _⟩ => ⟨S32x4096, .f32⟩
  | .hbm, ⟨24, _⟩ => ⟨S32x4096, .f32⟩
  | .local _ .vmem, ⟨0, _⟩ => ⟨S32x4096, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S32x4096, .f32⟩
  | .local _ .vmem, ⟨14, _⟩ => ⟨S32x4096, .f32⟩
  | .local _ .vmem, ⟨15, _⟩ => ⟨S32x4096, .f32⟩
  | .local _ .vmem, ⟨16, _⟩ => ⟨S32x32, .f32⟩
  | .local _ .vmem, ⟨17, _⟩ => ⟨S32x4096, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_0 : Ref sig .tc := ⟨.hbm, 12, rfl⟩
abbrev main_call0_v5 : Ref sig .tc := ⟨.hbm, 13, rfl⟩
abbrev main_v1 : Ref sig .tc := ⟨.hbm, 14, rfl⟩
abbrev main_cst : Ref sig .tc := ⟨.hbm, 15, rfl⟩
abbrev main_cst_0 : Ref sig .tc := ⟨.hbm, 16, rfl⟩
abbrev main_call1_v0 : Ref sig .tc := ⟨.hbm, 17, rfl⟩
abbrev main_call1_v1 : Ref sig .tc := ⟨.hbm, 18, rfl⟩
abbrev main_v2 : Ref sig .tc := ⟨.hbm, 19, rfl⟩
abbrev main_v3 : Ref sig .tc := ⟨.hbm, 20, rfl⟩
abbrev main_v4_0 : Ref sig .tc := ⟨.hbm, 21, rfl⟩
abbrev main_v4_1 : Ref sig .tc := ⟨.hbm, 22, rfl⟩
abbrev main_v4_2 : Ref sig .tc := ⟨.hbm, 23, rfl⟩
abbrev main_v5 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  bcast_S_S32x32 : S_.BroadcastsInDim S32x32 (![] : Fin 0 → Fin S32x32.rank)
  inb_S32x4096_S32x4096_0_0 : ∀ a, (![0, 0] : Fin 2 → Nat) a + S32x4096.size a ≤ S32x4096.size a
  h_S32x4096 : 0 < S32x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S32x256_S32x256_0_0 : ∀ a, (![0, 0] : Fin 2 → Nat) a + S32x256.size a ≤ S32x256.size a
  h_S32x256 : 0 < S32x256.numel
  shapeCasts_S32x4096_S32x4096 : S32x4096.ShapeCasts S32x4096
  inb_S32x32_S32x32_0_0 : ∀ a, (![0, 0] : Fin 2 → Nat) a + S32x32.size a ≤ S32x32.size a
  h_S32x32 : 0 < S32x32.numel
  shapeCasts_S32x32_S32x32 : S32x32.ShapeCasts S32x32
  reduces_S32x32_S32 : S32x32.Reduces [1] S32
  shapeCasts_S32_S32x1 : S32.ShapeCasts S32x1
  broadcasts_S32x1_S32x32 : S32x1.Broadcasts S32x32
  dot_S32x4096_S4096x256_S32x256_1_0_0_1_n_n_wf : DotDims.WF S32x4096 S4096x256 S32x256 [1] [0] [0] [1] [] []
  dot_S32x4096_S32x4096_S32x32_1_1_0_0_n_n_wf : DotDims.WF S32x4096 S32x4096 S32x32 [1] [1] [0] [0] [] []
  dot_S32x32_S32x4096_S32x4096_1_0_0_1_n_n_wf : DotDims.WF S32x32 S32x4096 S32x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x4096.size a ≤ S32x4096.size a
  hwx0_0 : ∀ i : grid0.Coords, EltTy.bits .f32 = 32 ∨ (Rect.block (s := S32x4096) S32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .f32 = 32 ∨ (Rect.block (s := S4096x4096) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x4096.size a
  hwx0_2 : ∀ i : grid0.Coords, EltTy.bits .f32 = 32 ∨ (Rect.block (s := S4096x4096) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x4096.size a
  hwx0_3 : ∀ i : grid0.Coords, EltTy.bits .f32 = 32 ∨ (Rect.block (s := S4096x4096) S4096x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x4096.size a
  hwx0_4 : ∀ i : grid0.Coords, EltTy.bits .f32 = 32 ∨ (Rect.block (s := S32x4096) S32x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S32x4096.size a
  hwx0_5 : ∀ i : grid0.Coords, EltTy.bits .f32 = 32 ∨ (Rect.block (s := S32x4096) S32x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x256.size a ≤ S32x4096.size a
  hwx0_6 : ∀ i : grid0.Coords, EltTy.bits .f32 = 32 ∨ (Rect.block (s := S32x4096) S32x256.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x4096.size a ≤ S32x4096.size a
  hwx1_0 : ∀ i : grid1.Coords, EltTy.bits .f32 = 32 ∨ (Rect.block (s := S32x4096) S32x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x4096.size a ≤ S32x4096.size a
  hwx1_1 : ∀ i : grid1.Coords, EltTy.bits .f32 = 32 ∨ (Rect.block (s := S32x4096) S32x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x4096.size a ≤ S32x4096.size a
  hwx1_2 : ∀ i : grid1.Coords, EltTy.bits .f32 = 32 ∨ (Rect.block (s := S32x4096) S32x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x4096.size a ≤ S32x4096.size a
  hwx1_4 : ∀ i : grid1.Coords, EltTy.bits .f32 = 32 ∨ (Rect.block (s := S32x4096) S32x4096.size (cc1_transform_4 i) (hinb1_4 i)).WholeWords (EltTy.packing .f32)

variable [Facts₀]

def dot_S32x4096_S4096x256_S32x256_1_0_0_1_n_n : DotDims S32x4096 S4096x256 S32x256 where
  lhsContracting := [1]
  rhsContracting := [0]
  lhsNonContracting := [0]
  rhsNonContracting := [1]
  lhsBatch := []
  rhsBatch := []
  wf := dot_S32x4096_S4096x256_S32x256_1_0_0_1_n_n_wf
def dot_S32x4096_S32x4096_S32x32_1_1_0_0_n_n : DotDims S32x4096 S32x4096 S32x32 where
  lhsContracting := [1]
  rhsContracting := [1]
  lhsNonContracting := [0]
  rhsNonContracting := [0]
  lhsBatch := []
  rhsBatch := []
  wf := dot_S32x4096_S32x4096_S32x32_1_1_0_0_n_n_wf
def dot_S32x32_S32x4096_S32x4096_1_0_0_1_n_n : DotDims S32x32 S32x4096 S32x4096 where
  lhsContracting := [1]
  rhsContracting := [0]
  lhsNonContracting := [0]
  rhsNonContracting := [1]
  lhsBatch := []
  rhsBatch := []
  wf := dot_S32x32_S32x4096_S32x4096_1_0_0_1_n_n_wf

abbrev win0_0 : Pipeline.Window sig grid0 :=
  Pipeline.Window.ofSpec (Memref.whole main_arg0) S32x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S32x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S32x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S32x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_1) S32x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S32x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S32x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S32x4096.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x4096 : Shape := ⟨2, ![32, 4096]⟩
abbrev S4096x4096 : Shape := ⟨2, ![4096, 4096]⟩
abbrev S4096x32 : Shape := ⟨2, ![4096, 32]⟩
abbrev S32x32 : Shape := ⟨2, ![32, 32]⟩
abbrev S_ : Shape := ⟨0, ![]⟩
abbrev S32 : Shape := ⟨1, ![32]⟩
abbrev S32x1 : Shape := ⟨2, ![32, 1]⟩

abbrev nBuf : Space → Nat
  | .hbm => 45
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S32x4096, .f32⟩
  | .hbm, ⟨5, _⟩ => ⟨S32x4096, .f32⟩
  | .hbm, ⟨6, _⟩ => ⟨S32x4096, .f32⟩
  | .hbm, ⟨7, _⟩ => ⟨S4096x32, .f32⟩
  | .hbm, ⟨8, _⟩ => ⟨S32x32, .f32⟩
  | .hbm, ⟨9, _⟩ => ⟨S_, .f32⟩
  | .hbm, ⟨10, _⟩ => ⟨S32x32, .f32⟩
  | .hbm, ⟨11, _⟩ => ⟨S32x32, .f32⟩
  | .hbm, ⟨12, _⟩ => ⟨S_, .i1⟩
  | .hbm, ⟨13, _⟩ => ⟨S32x32, .i1⟩
  | .hbm, ⟨14, _⟩ => ⟨S32x32, .i32⟩
  | .hbm, ⟨15, _⟩ => ⟨S_, .i32⟩
  | .hbm, ⟨16, _⟩ => ⟨S32x32, .i32⟩
  | .hbm, ⟨17, _⟩ => ⟨S32x32, .i32⟩
  | .hbm, ⟨18, _⟩ => ⟨S32x32, .i32⟩
  | .hbm, ⟨19, _⟩ => ⟨S32x32, .i1⟩
  | .hbm, ⟨20, _⟩ => ⟨S_, .i1⟩
  | .hbm, ⟨21, _⟩ => ⟨S32x32, .i1⟩
  | .hbm, ⟨22, _⟩ => ⟨S32x32, .i1⟩
  | .hbm, ⟨23, _⟩ => ⟨S_, .f32⟩
  | .hbm, ⟨24, _⟩ => ⟨S_, .f32⟩
  | .hbm, ⟨25, _⟩ => ⟨S32x32, .f32⟩
  | .hbm, ⟨26, _⟩ => ⟨S32x32, .f32⟩
  | .hbm, ⟨27, _⟩ => ⟨S32x32, .f32⟩
  | .hbm, ⟨28, _⟩ => ⟨S32x32, .f32⟩
  | .hbm, ⟨29, _⟩ => ⟨S32x32, .f32⟩
  | .hbm, ⟨30, _⟩ => ⟨S_, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32x1, .f32⟩
  | .hbm, ⟨36, _⟩ => ⟨S32x32, .f32⟩
  | .hbm, ⟨37, _⟩ => ⟨S32x32, .f32⟩
  | .hbm, ⟨38, _⟩ => ⟨S32x32, .f32⟩
  | .hbm, ⟨39, _⟩ => ⟨S_, .f32⟩
  | .hbm, ⟨40, _⟩ => ⟨S32, .f32⟩
  | .hbm, ⟨41, _⟩ => ⟨S32x1, .f32⟩
  | .hbm, ⟨42, _⟩ => ⟨S32x32, .f32⟩
  | .hbm, ⟨43, _⟩ => ⟨S32x32, .f32⟩
  | .hbm, ⟨44, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v8 : Ref sig .tc := ⟨.hbm, 22, rfl⟩
abbrev main_cst_0 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]

class Facts₀ : Prop where
  transposes_S32x4096_S4096x32_1_0 : S32x4096.Transposes [1, 0] S4096x32
  bcast_S_S32x32 : S_.BroadcastsInDim S32x32 (![] : Fin 0 → Fin S32x32.rank)
  reducesTo_S32x32_S32_d1 : S32x32.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x32_0_1 : S32x1.BroadcastsInDim S32x32 (![0, 1] : Fin 2 → Fin S32x32.rank)
  dot_S32x4096_S4096x4096_S32x4096_1_0_0_1_n_n_wf : DotDims.WF S32x4096 S4096x4096 S32x4096 [1] [0] [0] [1] [] []
  dot_S32x4096_S4096x32_S32x32_1_0_0_1_n_n_wf : DotDims.WF S32x4096 S4096x32 S32x32 [1] [0] [0] [1] [] []
  dot_S32x32_S32x4096_S32x4096_1_0_0_1_n_n_wf : DotDims.WF S32x32 S32x4096 S32x4096 [1] [0] [0] [1] [] []

variable [Facts₀]

def dot_S32x4096_S4096x4096_S32x4096_1_0_0_1_n_n : DotDims S32x4096 S4096x4096 S32x4096 where
  lhsContracting := [1]
  rhsContracting := [0]
  lhsNonContracting := [0]
  rhsNonContracting := [1]
  lhsBatch := []
  rhsBatch := []
  wf := dot_S32x4096_S4096x4096_S32x4096_1_0_0_1_n_n_wf
def dot_S32x4096_S4096x32_S32x32_1_0_0_1_n_n : DotDims S32x4096 S4096x32 S32x32 where
  lhsContracting := [1]
  rhsContracting := [0]
  lhsNonContracting := [0]
  rhsNonContracting := [1]
  lhsBatch := []
  rhsBatch := []
  wf := dot_S32x4096_S4096x32_S32x32_1_0_0_1_n_n_wf
def dot_S32x32_S32x4096_S32x4096_1_0_0_1_n_n : DotDims S32x32 S32x4096 S32x4096 where
  lhsContracting := [1]
  rhsContracting := [0]
  lhsNonContracting := [0]
  rhsNonContracting := [1]
  lhsBatch := []
  rhsBatch := []
  wf := dot_S32x32_S32x4096_S32x4096_1_0_0_1_n_n_wf

class Facts : Prop extends Facts₀ where

variable [Facts]
-- ==== Proof.KernelRun.lean ====
/-
  The idealized kernel's run with its RESULT named.

  The program is two kernel regions after a stretch of host operations. Every weakly fair execution terminates without a
  fault, and at the end each unscoped buffer of a core holds the contents obtained by folding the program's segments over the
  launch memory: host operations applied in order, then each region's arrays replaced by what its write-backs leave. The
  statement below reads that fold at the result buffer and at the four arguments; the arguments come back as launched.
-/
import proofs.«110793_j2869038154391_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents `W7` (the fold of the whole
    program over the launch memory) and the four arguments as launched. -/
theorem run_result : θ_run defs (onTc (τ := τ) (main (F := F))) ⟨m, fun _ => 0, ρ⟩ (fun r => ∀ c : Dev nD,
      r.2.mem ((c.tc : Thread nD τ).loc main_v5) = W7 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v5 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.ResultRun

end
-- ==== Proof.Spec.lean ====
/-
  Masked softmax attention over a window of 32 positions with 4096 features, as one function of its arguments on the
  extended reals.

  From an input `x` (32 × 4096) and three weight matrices (4096 × 4096) come the keys, queries and values, each the
  matrix product `x · w`. The score of query row `r` against key row `c` is their inner product over the 4096 features
  times the scale 2⁻⁸, capped from above by the mask entry at `(r, c)`. Along each row the scores are shifted by the row's
  maximum, exponentiated, and divided by the row's sum of exponentials; the result is the weights times the values.

  Float literals stay the words they are printed as: both programs carry the same words, so none is ever evaluated.
-/
import Idealize.ShloMosaic.Lib.ValueIdx
import Idealize.ShloMosaic.PureOps.Ideal.Laws

noncomputable section

namespace Cert.Attn

open Idealize.ShloMosaic Idealize.ShloMosaic.ValueIdx

/-- The input and each of keys / queries / values: 32 positions by 4096 features. -/
abbrev Sx : Shape := ⟨2, ![32, 4096]⟩
/-- A projection's weights. -/
abbrev Sw : Shape := ⟨2, ![4096, 4096]⟩
/-- The scores: position against position. -/
abbrev Ss : Shape := ⟨2, ![32, 32]⟩

/-- An array given by its value at each pair of coordinates. -/
def arr2 {a b : ℕ} (f : Fin a → Fin b → EReal) : (⟨2, ![a, b]⟩ : Shape).Idx → EReal := fun i => f (i 0) (i 1)

theorem arr2_ix2 {a b : ℕ} (f : Fin a → Fin b → EReal) (p : Fin a) (q : Fin b) : arr2 f (ix2 p q) = f p q := rfl

/-- An array read back by coordinates. -/
def coords {a b : ℕ} (s : (⟨2, ![a, b]⟩ : Shape).Idx → EReal) : Fin a → Fin b → EReal := fun p q => s (ix2 p q)

theorem coords_arr2 {a b : ℕ} (f : Fin a → Fin b → EReal) : coords (arr2 f) = f := rfl

/-- The projection `x · w` at row `r`, feature `c`. -/
def projAt (x : Sx.Idx → EReal) (w : Sw.Idx → EReal) (r : Fin 32) (c : Fin 4096) : EReal :=
  ∑ d : Fin 4096, x (ix2 r d) * w (ix2 d c)

/-- The capped, scaled score of query row `r` against key row `c`. -/
def scoreAt (q k : Sx.Idx → EReal) (mask : Ss.Idx → EReal) (r c : Fin 32) : EReal :=
  min ((∑ d : Fin 4096, q (ix2 r d) * k (ix2 c d)) * Ideal.ofBits .f32 0x3B800000#32) (mask (ix2 r c))

/-- A row's maximum, taken from `-∞` (and once more against `-∞`, as both programs do). -/
def rowMax (s : Fin 32 → Fin 32 → EReal) (r : Fin 32) : EReal :=
  max (Ideal.ofBits .f32 0xFF800000#32) ((Finset.univ : Finset (Fin 32)).fold max (Ideal.ofBits .f32 0xFF800000#32) (s r))

/-- The exponential of a score less its row's maximum. -/
def expAt (s : Fin 32 → Fin 32 → EReal) (r c : Fin 32) : EReal := Ideal.exp (s r c - rowMax s r)

/-- The softmax weight: that exponential over its row's sum of exponentials. -/
def weightAt (s : Fin 32 → Fin 32 → EReal) (r c : Fin 32) : EReal :=
  Ideal.div (expAt s r c) (∑ j : Fin 32, expAt s r j)

/-- The output at row `r`, feature `c`: the row's weights against the values' column `c`. -/
def outAt (q k v : Sx.Idx → EReal) (mask : Ss.Idx → EReal) (r : Fin 32) (c : Fin 4096) : EReal :=
  ∑ j : Fin 32, weightAt (scoreAt q k mask) r j * v (ix2 j c)

/-- The whole computation: project, then attend. -/
def attention (x : Sx.Idx → EReal) (wk wq wv : Sw.Idx → EReal) (mask : Ss.Idx → EReal) : Sx.Idx → EReal :=
  arr2 (outAt (arr2 (projAt x wq)) (arr2 (projAt x wk)) (arr2 (projAt x wv)) mask)

end Cert.Attn

end
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.KernelStages.lean ====
/-
  The kernel's softmax, stage by stage, read at an index given by coordinates.

  The kernel reduces a 32 × 32 array of scores along each row (a maximum from `-∞`, then a sum of exponentials from `0`),
  keeps each row's value as a column `[32, 1]` and spreads that column back over the row. Read at `(r, c)` each stage is
  the corresponding stage of the specification at `(r, c)`.
-/
import proofs.«110793_j2869038154391_2_alg».proof.Proof.Spec
import proofs.«110793_j2869038154391_2_alg».proof.Proof.LibKeepdims
import Idealize.ShloMosaic.PureOps.Ideal.Laws

noncomputable section

namespace Cert.Attn

open Idealize.ShloMosaic Idealize.ShloMosaic.ValueIdx

/-- One value per row. -/
abbrev Sv : Shape := ⟨1, ![32]⟩
/-- The same kept as a column. -/
abbrev Scol : Shape := ⟨2, ![32, 1]⟩

/-- Row `r` with column coordinate `c` inserted is the index `(r, c)`. -/
theorem lift_row (h : Ss.Reduces [1] Sv) (r c : Fin 32) : h.lift (ix1 r) c = ix2 r c :=
  funext fun a => Fin.ext (by match a with | ⟨0, _⟩ => rfl | ⟨1, _⟩ => rfl)

/-- The kernel's row maximum (a lane reduction from `-∞`, then the maximum with `-∞` once more) is the specification's. -/
theorem kernel_rowMax (s : FVec Ideal Ss .f32) (h : Ss.Reduces [1] Sv) (hφ : FKind.Formats .f32)
    (hacc : (0xFF800000#32 : BitVec 32) = FKind.maximumf.neutral .f32 hφ) (r : Fin 32) :
    maximumf (broadcast Sv (Scalar.ofBits (F := Ideal) .f32 0xFF800000#32))
        (multiReduction .maximumf [1] Sv s 0xFF800000#32 h hφ hacc) (ix1 r)
      = rowMax (coords s) r := by
  show max (Ideal.ofBits .f32 0xFF800000#32) (multiReduction .maximumf [1] Sv s 0xFF800000#32 h hφ hacc (ix1 r)) = _
  refine congrArg (max _) ?_
  refine (Ideal.multiReduction_maximumf_single s 0xFF800000#32 h hφ hacc (ix1 r)).trans ?_
  refine congrArg (fun f : Fin 32 → EReal => (Finset.univ : Finset (Fin 32)).fold max (Ideal.ofBits .f32 0xFF800000#32) f) ?_
  funext c
  exact congrArg s (lift_row h r c)

/-- A row value kept as a column and spread over the row, subtracted from the scores and exponentiated. -/
theorem kernel_exp (s : FVec Ideal Ss .f32) (mx : FVec Ideal Sv .f32) (h1 : Sv.ShapeCasts Scol) (h2 : Scol.Broadcasts Ss)
    (r c : Fin 32) :
    exp (subf s (broadcastTo Ss (shapeCast Scol mx h1) h2)) (ix2 r c) = Ideal.exp (s (ix2 r c) - mx (ix1 r)) := by
  show Ideal.exp (s (ix2 r c) - broadcastTo Ss (shapeCast Scol mx h1) h2 (ix2 r c)) = _
  rw [LibKeepdims.column_apply]

/-- The kernel's row sum (a lane reduction from `0`) is the sum over the row's coordinates. -/
theorem kernel_rowSum (e : FVec Ideal Ss .f32) (h : Ss.Reduces [1] Sv) (hφ : FKind.Formats .f32)
    (hacc : (0x00000000#32 : BitVec 32) = FKind.add.neutral .f32 hφ) (r : Fin 32) :
    multiReduction .add [1] Sv e 0x00000000#32 h hφ hacc (ix1 r) = ∑ c : Fin 32, e (ix2 r c) := by
  refine (Ideal.multiReduction_add_single e 0x00000000#32 h hφ hacc (ix1 r)).trans ?_
  exact Finset.sum_congr rfl fun c _ => congrArg e (lift_row h r c)

/-- The quotient by a row value kept as a column and spread over the row. -/
theorem kernel_div (e : FVec Ideal Ss .f32) (sm : FVec Ideal Sv .f32) (h1 : Sv.ShapeCasts Scol) (h2 : Scol.Broadcasts Ss)
    (r c : Fin 32) :
    divf e (broadcastTo Ss (shapeCast Scol sm h1) h2) (ix2 r c) = Ideal.div (e (ix2 r c)) (sm (ix1 r)) := by
  show Ideal.div (e (ix2 r c)) (broadcastTo Ss (shapeCast Scol sm h1) h2 (ix2 r c)) = _
  rw [LibKeepdims.column_apply]

/-- The four stages together: the kernel's softmax of a score array, read at `(r, c)`, is the specification's weight. -/
theorem kernel_softmax (s : FVec Ideal Ss .f32) (h : Ss.Reduces [1] Sv) (hφ : FKind.Formats .f32)
    (hmax : (0xFF800000#32 : BitVec 32) = FKind.maximumf.neutral .f32 hφ)
    (hadd : (0x00000000#32 : BitVec 32) = FKind.add.neutral .f32 hφ)
    (h1 : Sv.ShapeCasts Scol) (h2 : Scol.Broadcasts Ss) (r c : Fin 32) :
    divf (exp (subf s (broadcastTo Ss (shapeCast Scol
            (maximumf (broadcast Sv (Scalar.ofBits (F := Ideal) .f32 0xFF800000#32))
              (multiReduction .maximumf [1] Sv s 0xFF800000#32 h hφ hmax)) h1) h2)))
        (broadcastTo Ss (shapeCast Scol
          (multiReduction .add [1] Sv (exp (subf s (broadcastTo Ss (shapeCast Scol
            (maximumf (broadcast Sv (Scalar.ofBits (F := Ideal) .f32 0xFF800000#32))
              (multiReduction .maximumf [1] Sv s 0xFF800000#32 h hφ hmax)) h1) h2))) 0x00000000#32 h hφ hadd) h1) h2)
        (ix2 r c)
      = weightAt (coords s) r c := by
  have he : ∀ a b : Fin 32, exp (subf s (broadcastTo Ss (shapeCast Scol
            (maximumf (broadcast Sv (Scalar.ofBits (F := Ideal) .f32 0xFF800000#32))
              (multiReduction .maximumf [1] Sv s 0xFF800000#32 h hφ hmax)) h1) h2)) (ix2 a b) = expAt (coords s) a b := fun a b =>
    (kernel_exp s _ h1 h2 a b).trans (by rw [kernel_rowMax s h hφ hmax a]; rfl)
  refine (kernel_div _ _ h1 h2 r c).trans ?_
  rw [kernel_rowSum _ h hφ hadd r, he r c]
  unfold weightAt
  exact congrArg (Ideal.div _) (Finset.sum_congr rfl fun j _ => he r j)

end Cert.Attn

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.KernelPayloads.lean ====
/-
  The two kernel bodies' arithmetic, read at an index given by coordinates, over the extended reals.

  The projection body multiplies the 32 × 4096 input block by a 4096 × 256 tile of a weight matrix: at `(p, q)` the sum over
  the 4096 features `d` of the input at `(p, d)` times the tile at `(d, q)`. The attention body contracts queries against
  keys over the features, scales and caps the scores, takes the row softmax and multiplies the weights into the values: at
  `(r, c)` it is the specification's `outAt`. Rounding to bf16 on the way into a product is the identity here, and a
  shape cast to the same shape is the identity everywhere.
-/
import proofs.«110793_j2869038154391_2_alg».proof.Proof.Gen.KernelIdeal.Skeleton
import proofs.«110793_j2869038154391_2_alg».proof.Proof.KernelStages
import proofs.«110793_j2869038154391_2_alg».proof.Proof.LibDotSingle
import Idealize.ShloMosaic.Lib.Pipeline.Value

noncomputable section

namespace Cert.KernelIdeal.Payloads

open Cert.KernelIdeal Cert.KernelIdeal.Gen Idealize.ShloMosaic Idealize.ShloMosaic.ValueIdx Cert.Attn

/-! ## The three products' operand indices -/

/-- Input block times weight tile: at `(r, c)` and feature `d` the operands are read at `(r, d)` and `(d, c)`. -/
theorem proj_lhs_non (i : S32x256.Idx) (k : dot_S32x4096_S4096x256_S32x256_1_0_0_1_n_n.contr.Idx) :
    (dot_S32x4096_S4096x256_S32x256_1_0_0_1_n_n.lhsIdx i k 0).val = (i 0).val := by
  unfold DotDims.lhsIdx
  rw [dif_neg (show ¬(0 : Fin S32x4096.rank) ∈ dot_S32x4096_S4096x256_S32x256_1_0_0_1_n_n.lhsBatch by decide),
    dif_pos (show (0 : Fin S32x4096.rank) ∈ dot_S32x4096_S4096x256_S32x256_1_0_0_1_n_n.lhsNonContracting by decide)]
  rfl
theorem proj_rhs_non (i : S32x256.Idx) (k : dot_S32x4096_S4096x256_S32x256_1_0_0_1_n_n.contr.Idx) :
    (dot_S32x4096_S4096x256_S32x256_1_0_0_1_n_n.rhsIdx i k 1).val = (i 1).val := by
  unfold DotDims.rhsIdx
  rw [dif_neg (show ¬(1 : Fin S4096x256.rank) ∈ dot_S32x4096_S4096x256_S32x256_1_0_0_1_n_n.rhsBatch by decide),
    dif_pos (show (1 : Fin S4096x256.rank) ∈ dot_S32x4096_S4096x256_S32x256_1_0_0_1_n_n.rhsNonContracting by decide)]
  rfl
theorem proj_lhs (r : Fin 32) (c : Fin 256) (d : Fin 4096) :
    dot_S32x4096_S4096x256_S32x256_1_0_0_1_n_n.lhsIdx (ix2 r c) ((contrEquiv1 dot_S32x4096_S4096x256_S32x256_1_0_0_1_n_n 4096 rfl rfl).symm d) = ix2 r d :=
  funext fun a => Fin.ext (by
    match a with
    | ⟨0, _⟩ => exact proj_lhs_non _ _
    | ⟨1, _⟩ => exact (dot_S32x4096_S4096x256_S32x256_1_0_0_1_n_n.lhsIdx_val_of_single rfl _ _).trans (contrEquiv1_symm_val dot_S32x4096_S4096x256_S32x256_1_0_0_1_n_n 4096 rfl rfl d))
theorem proj_rhs (r : Fin 32) (c : Fin 256) (d : Fin 4096) :
    dot_S32x4096_S4096x256_S32x256_1_0_0_1_n_n.rhsIdx (ix2 r c) ((contrEquiv1 dot_S32x4096_S4096x256_S32x256_1_0_0_1_n_n 4096 rfl rfl).symm d) = ix2 d c :=
  funext fun a => Fin.ext (by
    match a with
    | ⟨0, _⟩ => exact (dot_S32x4096_S4096x256_S32x256_1_0_0_1_n_n.rhsIdx_val_of_single rfl _ _).trans (contrEquiv1_symm_val dot_S32x4096_S4096x256_S32x256_1_0_0_1_n_n 4096 rfl rfl d)
    | ⟨1, _⟩ => exact proj_rhs_non _ _)

/-- Queries against keys, both contracted over their features: at `(r, c)` and feature `d` the operands are read at
    `(r, d)` and `(c, d)`. -/
theorem score_lhs_non (i : S32x32.Idx) (k : dot_S32x4096_S32x4096_S32x32_1_1_0_0_n_n.contr.Idx) :
    (dot_S32x4096_S32x4096_S32x32_1_1_0_0_n_n.lhsIdx i k 0).val = (i 0).val := by
  unfold DotDims.lhsIdx
  rw [dif_neg (show ¬(0 : Fin S32x4096.rank) ∈ dot_S32x4096_S32x4096_S32x32_1_1_0_0_n_n.lhsBatch by decide),
    dif_pos (show (0 : Fin S32x4096.rank) ∈ dot_S32x4096_S32x4096_S32x32_1_1_0_0_n_n.lhsNonContracting by decide)]
  rfl
theorem score_rhs_non (i : S32x32.Idx) (k : dot_S32x4096_S32x4096_S32x32_1_1_0_0_n_n.contr.Idx) :
    (dot_S32x4096_S32x4096_S32x32_1_1_0_0_n_n.rhsIdx i k 0).val = (i 1).val := by
  unfold DotDims.rhsIdx
  rw [dif_neg (show ¬(0 : Fin S32x4096.rank) ∈ dot_S32x4096_S32x4096_S32x32_1_1_0_0_n_n.rhsBatch by decide),
    dif_pos (show (0 : Fin S32x4096.rank) ∈ dot_S32x4096_S32x4096_S32x32_1_1_0_0_n_n.rhsNonContracting by decide)]
  rfl
theorem score_lhs (r c : Fin 32) (d : Fin 4096) :
    dot_S32x4096_S32x4096_S32x32_1_1_0_0_n_n.lhsIdx (ix2 r c) ((contrEquiv1 dot_S32x4096_S32x4096_S32x32_1_1_0_0_n_n 4096 rfl rfl).symm d) = ix2 r d :=
  funext fun a => Fin.ext (by
    match a with
    | ⟨0, _⟩ => exact score_lhs_non _ _
    | ⟨1, _⟩ => exact (dot_S32x4096_S32x4096_S32x32_1_1_0_0_n_n.lhsIdx_val_of_single rfl _ _).trans (contrEquiv1_symm_val dot_S32x4096_S32x4096_S32x32_1_1_0_0_n_n 4096 rfl rfl d))
theorem score_rhs (r c : Fin 32) (d : Fin 4096) :
    dot_S32x4096_S32x4096_S32x32_1_1_0_0_n_n.rhsIdx (ix2 r c) ((contrEquiv1 dot_S32x4096_S32x4096_S32x32_1_1_0_0_n_n 4096 rfl rfl).symm d) = ix2 c d :=
  funext fun a => Fin.ext (by
    match a with
    | ⟨0, _⟩ => exact score_rhs_non _ _
    | ⟨1, _⟩ => exact (dot_S32x4096_S32x4096_S32x32_1_1_0_0_n_n.rhsIdx_val_of_single rfl _ _).trans (contrEquiv1_symm_val dot_S32x4096_S32x4096_S32x32_1_1_0_0_n_n 4096 rfl rfl d))

/-- Weights against values: at `(r, c)` and position `d` the operands are read at `(r, d)` and `(d, c)`. -/
theorem out_lhs_non (i : S32x4096.Idx) (k : dot_S32x32_S32x4096_S32x4096_1_0_0_1_n_n.contr.Idx) :
    (dot_S32x32_S32x4096_S32x4096_1_0_0_1_n_n.lhsIdx i k 0).val = (i 0).val := by
  unfold DotDims.lhsIdx
  rw [dif_neg (show ¬(0 : Fin S32x32.rank) ∈ dot_S32x32_S32x4096_S32x4096_1_0_0_1_n_n.lhsBatch by decide),
    dif_pos (show (0 : Fin S32x32.rank) ∈ dot_S32x32_S32x4096_S32x4096_1_0_0_1_n_n.lhsNonContracting by decide)]
  rfl
theorem out_rhs_non (i : S32x4096.Idx) (k : dot_S32x32_S32x4096_S32x4096_1_0_0_1_n_n.contr.Idx) :
    (dot_S32x32_S32x4096_S32x4096_1_0_0_1_n_n.rhsIdx i k 1).val = (i 1).val := by
  unfold DotDims.rhsIdx
  rw [dif_neg (show ¬(1 : Fin S32x4096.rank) ∈ dot_S32x32_S32x4096_S32x4096_1_0_0_1_n_n.rhsBatch by decide),
    dif_pos (show (1 : Fin S32x4096.rank) ∈ dot_S32x32_S32x4096_S32x4096_1_0_0_1_n_n.rhsNonContracting by decide)]
  rfl
theorem out_lhs (r : Fin 32) (c : Fin 4096) (d : Fin 32) :
    dot_S32x32_S32x4096_S32x4096_1_0_0_1_n_n.lhsIdx (ix2 r c) ((contrEquiv1 dot_S32x32_S32x4096_S32x4096_1_0_0_1_n_n 32 rfl rfl).symm d) = ix2 r d :=
  funext fun a => Fin.ext (by
    match a with
    | ⟨0, _⟩ => exact out_lhs_non _ _
    | ⟨1, _⟩ => exact (dot_S32x32_S32x4096_S32x4096_1_0_0_1_n_n.lhsIdx_val_of_single rfl _ _).trans (contrEquiv1_symm_val dot_S32x32_S32x4096_S32x4096_1_0_0_1_n_n 32 rfl rfl d))
theorem out_rhs (r : Fin 32) (c : Fin 4096) (d : Fin 32) :
    dot_S32x32_S32x4096_S32x4096_1_0_0_1_n_n.rhsIdx (ix2 r c) ((contrEquiv1 dot_S32x32_S32x4096_S32x4096_1_0_0_1_n_n 32 rfl rfl).symm d) = ix2 d c :=
  funext fun a => Fin.ext (by
    match a with
    | ⟨0, _⟩ => exact (dot_S32x32_S32x4096_S32x4096_1_0_0_1_n_n.rhsIdx_val_of_single rfl _ _).trans (contrEquiv1_symm_val dot_S32x32_S32x4096_S32x4096_1_0_0_1_n_n 32 rfl rfl d)
    | ⟨1, _⟩ => exact out_rhs_non _ _)

/-! ## The projection body -/

/-- One projection tile at `(p, q)`: the sum over the features of input times weight tile. -/
theorem proj_tile (X : FVec Ideal S32x4096 .f32) (W : FVec Ideal S4096x256 .f32) (p : Fin 32) (q : Fin 256) :
    k0_pay2 (F := Ideal) X W (ix2 p q) = ∑ d : Fin 4096, X (ix2 p d) * W (ix2 d q) := by
  unfold k0_pay2 k0_pay1
  exact LibDotSingle.matmul_zero_apply dot_S32x4096_S4096x256_S32x256_1_0_0_1_n_n 4096 rfl rfl none _ _ (ix2 p q)
    (fun d => ix2 p d) (fun d => ix2 d q) (proj_lhs p q) (proj_rhs p q)

/-- The three projections are one body applied to three weight tiles. -/
theorem pay3_eq (X : FVec Ideal S32x4096 .f32) (W : FVec Ideal S4096x256 .f32) : k0_pay3 (F := Ideal) X W = k0_pay2 X W := rfl
theorem pay4_eq (X : FVec Ideal S32x4096 .f32) (W : FVec Ideal S4096x256 .f32) : k0_pay4 (F := Ideal) X W = k0_pay2 X W := rfl

/-! ## The attention body -/

/-- The body's scores at `(r, c)`: the scaled inner product of query row `r` and key row `c`, capped by the mask. -/
theorem kernel_scores (q k : FVec Ideal S32x4096 .f32) (mask : FVec Ideal S32x32 .f32) (r c : Fin 32) :
    minimumf (mulf (matmul dot_S32x4096_S32x4096_S32x32_1_1_0_0_n_n (some .fp32)
          (shapeCast S32x4096 q shapeCasts_S32x4096_S32x4096) (shapeCast S32x4096 k shapeCasts_S32x4096_S32x4096)
          (constant (F := Ideal) S32x32 .f32 0x00000000#32))
        (broadcast S32x32 (Scalar.ofBits (F := Ideal) .f32 0x3B800000#32)))
      (shapeCast S32x32 mask shapeCasts_S32x32_S32x32) (ix2 r c) = scoreAt q k mask r c := by
  rw [shapeCast_self q, shapeCast_self k, shapeCast_self mask]
  show min (matmul dot_S32x4096_S32x4096_S32x32_1_1_0_0_n_n (some .fp32) q k
      (constant (F := Ideal) S32x32 .f32 0x00000000#32) (ix2 r c) * Ideal.ofBits .f32 0x3B800000#32) (mask (ix2 r c)) = _
  rw [LibDotSingle.matmul_zero_apply dot_S32x4096_S32x4096_S32x32_1_1_0_0_n_n 4096 rfl rfl (some .fp32) q k (ix2 r c)
    (fun d => ix2 r d) (fun d => ix2 c d) (score_lhs r c) (score_rhs r c)]
  rfl

/-- The attention body at `(r, c)` is the specification's output there. -/
theorem attn_body (q k v : FVec Ideal S32x4096 .f32) (mask : FVec Ideal S32x32 .f32) (r : Fin 32) (c : Fin 4096) :
    k1_pay1 (F := Ideal) q k mask v (ix2 r c) = outAt q k v mask r c := by
  unfold k1_pay1
  refine (LibDotSingle.matmul_zero_apply dot_S32x32_S32x4096_S32x4096_1_0_0_1_n_n 32 rfl rfl none _ _ (ix2 r c)
    (fun j => ix2 r j) (fun j => ix2 j c) (out_lhs r c) (out_rhs r c)).trans ?_
  unfold outAt
  refine Finset.sum_congr rfl fun j _ => ?_
  have hs : coords (minimumf (mulf (matmul dot_S32x4096_S32x4096_S32x32_1_1_0_0_n_n (some .fp32)
          (shapeCast S32x4096 q shapeCasts_S32x4096_S32x4096) (shapeCast S32x4096 k shapeCasts_S32x4096_S32x4096)
          (constant (F := Ideal) S32x32 .f32 0x00000000#32))
        (broadcast S32x32 (Scalar.ofBits (F := Ideal) .f32 0x3B800000#32)))
      (shapeCast S32x32 mask shapeCasts_S32x32_S32x32)) = scoreAt q k mask :=
    funext fun a => funext fun b => kernel_scores q k mask a b
  rw [← hs]
  refine congrArg₂ (· * ·) ?_ ?_
  · exact kernel_softmax _ reduces_S32x32_S32 (.inl rfl) rfl rfl shapeCasts_S32_S32x1 broadcasts_S32x1_S32x32 r j
  · show shapeCast S32x4096 v shapeCasts_S32x4096_S32x4096 (ix2 j c) = v (ix2 j c)
    rw [shapeCast_self]

end Cert.KernelIdeal.Payloads

end
-- ==== Proof.KernelValue.lean ====
/-
  What the idealized kernel leaves in its result buffer, as one function of the arguments.

  The first region tiles the 4096 output features into sixteen tiles of 256: at grid point `t` it reads the whole input and
  columns `256 t … 256 t + 255` of each weight matrix, and writes the same columns of keys, queries and values. Each element of
  a projection is a full sum over the 4096 input features, so the tiles are restrictions of one whole-array function, and the
  sixteen column blocks cover the array. The second region has one grid point whose blocks are the whole arrays: it writes the
  attention output of the queries, keys, values and mask it finds. The mask comes from host operations before the first
  region and is left untouched by it.
-/
import proofs.«110793_j2869038154391_2_alg».proof.Proof.Gen.KernelIdeal.Frame
import proofs.«110793_j2869038154391_2_alg».proof.Proof.Gen.ReferenceIdeal.Read
import proofs.«110793_j2869038154391_2_alg».proof.Proof.KernelPayloads
import Idealize.ShloMosaic.Lib.Pipeline.Value
import Idealize.ShloMosaic.Lib.StableHlo.Run

set_option maxRecDepth 16384

noncomputable section

namespace Cert.KernelIdeal.ResultValue

open Cert.KernelIdeal Cert.KernelIdeal.Gen Cert.KernelIdeal.Payloads Cert.Attn
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- A projection as an array. -/
abbrev projArr (x : S32x4096.Idx → Elt Ideal .f32) (w : S4096x4096.Idx → Elt Ideal .f32) : S32x4096.Idx → Elt Ideal .f32 :=
  arr2 (projAt x w)

/-- The attention output as an array. -/
abbrev attnArr (q k v : S32x4096.Idx → Elt Ideal .f32) (mask : S32x32.Idx → Elt Ideal .f32) : S32x4096.Idx → Elt Ideal .f32 :=
  arr2 (outAt q k v mask)

/-! ## The first region: three projections, sixteen column tiles each -/

/-- Column `q` of tile `t` is column `256 t + q` of the array. -/
def col (t : Fin cfg0.N) (q : Fin 256) : Fin 4096 :=
  ⟨t.val * 256 + q.val, by have := lt_of_lt_of_eq t.isLt N_0; have := q.isLt; omega⟩

/-- The printed index maps over the grid: the input's block never moves; every weight tile and every output tile is at block
    row 0 and block column `t`. -/
theorem idx0 : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

section Region0

variable (V : (c : Dev nD) → (b : Ref sig .tc) → Buf (Elt Ideal) ((c : Thread nD τ).loc b))

/-- The input's block at any point is the input. -/
theorem blk0_x (c : Dev nD) (t : Fin cfg0.N) (p : Fin 32) (d : Fin 4096) :
    iblk0 V c 0 t (ix2 p d) = V c main_arg0 (ix2 p d) := by
  show V c main_arg0 (((cfg0.win 0).blk t).view.emb (ix2 p d)) = V c main_arg0 (ix2 p d)
  refine congrArg (V c main_arg0) (funext fun a => Fin.ext ?_)
  obtain ⟨e00, e01, _⟩ := idx0 t
  match a with
  | ⟨0, _⟩ => show win0_0.index t (0 : Fin 2) * 32 + 1 * p.val = p.val; omega
  | ⟨1, _⟩ => show win0_0.index t (1 : Fin 2) * 4096 + 1 * d.val = d.val; omega

/-- A weight tile at point `t` is columns `256 t …` of its matrix. -/
theorem blk0_w1 (c : Dev nD) (t : Fin cfg0.N) (d : Fin 4096) (q : Fin 256) :
    iblk0 V c 1 t (ix2 d q) = V c main_arg1 (ix2 d (col t q)) := by
  show V c main_arg1 (((cfg0.win 1).blk t).view.emb (ix2 d q)) = V c main_arg1 (ix2 d (col t q))
  refine congrArg (V c main_arg1) (funext fun a => Fin.ext ?_)
  obtain ⟨_, _, e10, e11, e20, e21, e30, e31, _⟩ := idx0 t
  match a with
  | ⟨0, _⟩ => show win0_1.index t (0 : Fin 2) * 4096 + 1 * d.val = d.val; omega
  | ⟨1, _⟩ => show win0_1.index t (1 : Fin 2) * 256 + 1 * q.val = t.val * 256 + q.val; omega

theorem blk0_w2 (c : Dev nD) (t : Fin cfg0.N) (d : Fin 4096) (q : Fin 256) :
    iblk0 V c 2 t (ix2 d q) = V c main_arg2 (ix2 d (col t q)) := by
  show V c main_arg2 (((cfg0.win 2).blk t).view.emb (ix2 d q)) = V c main_arg2 (ix2 d (col t q))
  refine congrArg (V c main_arg2) (funext fun a => Fin.ext ?_)
  obtain ⟨_, _, e10, e11, e20, e21, e30, e31, _⟩ := idx0 t
  match a with
  | ⟨0, _⟩ => show win0_2.index t (0 : Fin 2) * 4096 + 1 * d.val = d.val; omega
  | ⟨1, _⟩ => show win0_2.index t (1 : Fin 2) * 256 + 1 * q.val = t.val * 256 + q.val; omega

theorem blk0_w3 (c : Dev nD) (t : Fin cfg0.N) (d : Fin 4096) (q : Fin 256) :
    iblk0 V c 3 t (ix2 d q) = V c main_arg3 (ix2 d (col t q)) := by
  show V c main_arg3 (((cfg0.win 3).blk t).view.emb (ix2 d q)) = V c main_arg3 (ix2 d (col t q))
  refine congrArg (V c main_arg3) (funext fun a => Fin.ext ?_)
  obtain ⟨_, _, e10, e11, e20, e21, e30, e31, _⟩ := idx0 t
  match a with
  | ⟨0, _⟩ => show win0_3.index t (0 : Fin 2) * 4096 + 1 * d.val = d.val; omega
  | ⟨1, _⟩ => show win0_3.index t (1 : Fin 2) * 256 + 1 * q.val = t.val * 256 + q.val; omega

/-- Output window 4: the element `(p, q)` of point `t`'s block sits at `(p, 256 t + q)` of the array. -/
theorem emb0_4 (t : Fin cfg0.N) (p : Fin 32) (q : Fin 256) : ((cfg0.win 4).blk t).view.emb (ix2 p q) = ix2 p (col t q) :=
  funext fun a => Fin.ext (by
    obtain ⟨_, _, _, _, _, _, _, _, e40, e41, e50, e51, e60, e61⟩ := idx0 t
    match a with
    | ⟨0, _⟩ => show win0_4.index t (0 : Fin 2) * 32 + 1 * p.val = p.val; omega
    | ⟨1, _⟩ => show win0_4.index t (1 : Fin 2) * 256 + 1 * q.val = t.val * 256 + q.val; omega)

/-- What point `t` writes back through window 4 is block `t` of the projection of the input by the first weight matrix. -/
theorem flushed0_4 (c : Dev nD) (t : Fin cfg0.N) :
    (dat0 V c).flushed 4 t = ((cfg0.win 4).blk t).view.read (Elt Ideal) (projArr (V c main_arg0) (V c main_arg1)) := by
  show (cfg0.win 4).cut (grid0.coords t) ((dat0 V c).after 4 t) = _
  rw [after0_4]
  unfold out0_4
  rw [View.canon_unit_zero hz]
  simp only [View.ld_unit_zero (S := S32x4096) hz, View.ld_unit_zero (S := S4096x256) hz]
  funext y
  obtain ⟨p, q, rfl⟩ : ∃ (p : Fin 32) (q : Fin 256), y = ix2 p q := ⟨y 0, y 1, eq_ix2 y⟩
  show k0_pay2 (iblk0 V c 0 t) (iblk0 V c 1 t) (ix2 p q)
    = projArr (V c main_arg0) (V c main_arg1) (((cfg0.win 4).blk t).view.emb (ix2 p q))
  rw [emb0_4 t p q]
  refine (proj_tile _ _ p q).trans ?_
  show _ = projAt (V c main_arg0) (V c main_arg1) p (col t q)
  unfold projAt
  exact Finset.sum_congr rfl fun d _ => by rw [blk0_x V c t p d, blk0_w1 V c t d q]

/-- Every index of the array is in the block of the point its column falls in. -/
theorem cover0_4 (i : S32x4096.Idx) :
    ∃ t : Fin cfg0.N, (cfg0.win 4).flush t = true ∧ i ∈ ((cfg0.win 4).blk t).view.set := by
  have h0 : (i 0).val < 32 := (i 0).isLt
  have h1 : (i 1).val < 4096 := (i 1).isLt
  obtain ⟨t, ht⟩ : ∃ t : Fin cfg0.N, t.val = (i 1).val / 256 := ⟨⟨(i 1).val / 256, by rw [show cfg0.N = 16 from N_0]; omega⟩, rfl⟩
  refine ⟨t, flush0_4 t, ?_⟩
  show i ∈ ((View.whole main_v4_0).slice (win0_4.rect t)).set
  rw [View.set_slice_whole, Rect.mem_set_unit]
  obtain ⟨_, _, _, _, _, _, _, _, e40, e41, e50, e51, e60, e61⟩ := idx0 t
  intro a
  match a with
  | ⟨0, _⟩ => show win0_4.index t (0 : Fin 2) * 32 ≤ (i 0).val ∧ (i 0).val < win0_4.index t (0 : Fin 2) * 32 + 32; omega
  | ⟨1, _⟩ => show win0_4.index t (1 : Fin 2) * 256 ≤ (i 1).val ∧ (i 1).val < win0_4.index t (1 : Fin 2) * 256 + 256; omega

/-- So the array ends holding the whole projection. -/
theorem final0_4 (c : Dev nD) : (dat0 V c).arrAt 4 cfg0.N = projArr (V c main_arg0) (V c main_arg1) :=
  (dat0 V c).arrAt_eq_of_cover 4 (projArr (V c main_arg0) (V c main_arg1)) (fun t _ => flushed0_4 V c t) cover0_4

/-- Output window 5: the element `(p, q)` of point `t`'s block sits at `(p, 256 t + q)` of the array. -/
theorem emb0_5 (t : Fin cfg0.N) (p : Fin 32) (q : Fin 256) : ((cfg0.win 5).blk t).view.emb (ix2 p q) = ix2 p (col t q) :=
  funext fun a => Fin.ext (by
    obtain ⟨_, _, _, _, _, _, _, _, e40, e41, e50, e51, e60, e61⟩ := idx0 t
    match a with
    | ⟨0, _⟩ => show win0_5.index t (0 : Fin 2) * 32 + 1 * p.val = p.val; omega
    | ⟨1, _⟩ => show win0_5.index t (1 : Fin 2) * 256 + 1 * q.val = t.val * 256 + q.val; omega)

/-- What point `t` writes back through window 5 is block `t` of the projection of the input by the second weight matrix. -/
theorem flushed0_5 (c : Dev nD) (t : Fin cfg0.N) :
    (dat0 V c).flushed 5 t = ((cfg0.win 5).blk t).view.read (Elt Ideal) (projArr (V c main_arg0) (V c main_arg2)) := by
  show (cfg0.win 5).cut (grid0.coords t) ((dat0 V c).after 5 t) = _
  rw [after0_5]
  unfold out0_5
  rw [View.canon_unit_zero hz]
  simp only [View.ld_unit_zero (S := S32x4096) hz, View.ld_unit_zero (S := S4096x256) hz]
  funext y
  obtain ⟨p, q, rfl⟩ : ∃ (p : Fin 32) (q : Fin 256), y = ix2 p q := ⟨y 0, y 1, eq_ix2 y⟩
  show k0_pay3 (iblk0 V c 0 t) (iblk0 V c 2 t) (ix2 p q)
    = projArr (V c main_arg0) (V c main_arg2) (((cfg0.win 5).blk t).view.emb (ix2 p q))
  rw [emb0_5 t p q, pay3_eq]
  refine (proj_tile _ _ p q).trans ?_
  show _ = projAt (V c main_arg0) (V c main_arg2) p (col t q)
  unfold projAt
  exact Finset.sum_congr rfl fun d _ => by rw [blk0_x V c t p d, blk0_w2 V c t d q]

/-- Every index of the array is in the block of the point its column falls in. -/
theorem cover0_5 (i : S32x4096.Idx) :
    ∃ t : Fin cfg0.N, (cfg0.win 5).flush t = true ∧ i ∈ ((cfg0.win 5).blk t).view.set := by
  have h0 : (i 0).val < 32 := (i 0).isLt
  have h1 : (i 1).val < 4096 := (i 1).isLt
  obtain ⟨t, ht⟩ : ∃ t : Fin cfg0.N, t.val = (i 1).val / 256 := ⟨⟨(i 1).val / 256, by rw [show cfg0.N = 16 from N_0]; omega⟩, rfl⟩
  refine ⟨t, flush0_5 t, ?_⟩
  show i ∈ ((View.whole main_v4_1).slice (win0_5.rect t)).set
  rw [View.set_slice_whole, Rect.mem_set_unit]
  obtain ⟨_, _, _, _, _, _, _, _, e40, e41, e50, e51, e60, e61⟩ := idx0 t
  intro a
  match a with
  | ⟨0, _⟩ => show win0_5.index t (0 : Fin 2) * 32 ≤ (i 0).val ∧ (i 0).val < win0_5.index t (0 : Fin 2) * 32 + 32; omega
  | ⟨1, _⟩ => show win0_5.index t (1 : Fin 2) * 256 ≤ (i 1).val ∧ (i 1).val < win0_5.index t (1 : Fin 2) * 256 + 256; omega

/-- So the array ends holding the whole projection. -/
theorem final0_5 (c : Dev nD) : (dat0 V c).arrAt 5 cfg0.N = projArr (V c main_arg0) (V c main_arg2) :=
  (dat0 V c).arrAt_eq_of_cover 5 (projArr (V c main_arg0) (V c main_arg2)) (fun t _ => flushed0_5 V c t) cover0_5

/-- Output window 6: the element `(p, q)` of point `t`'s block sits at `(p, 256 t + q)` of the array. -/
theorem emb0_6 (t : Fin cfg0.N) (p : Fin 32) (q : Fin 256) : ((cfg0.win 6).blk t).view.emb (ix2 p q) = ix2 p (col t q) :=
  funext fun a => Fin.ext (by
    obtain ⟨_, _, _, _, _, _, _, _, e40, e41, e50, e51, e60, e61⟩ := idx0 t
    match a with
    | ⟨0, _⟩ => show win0_6.index t (0 : Fin 2) * 32 + 1 * p.val = p.val; omega
    | ⟨1, _⟩ => show win0_6.index t (1 : Fin 2) * 256 + 1 * q.val = t.val * 256 + q.val; omega)

/-- What point `t` writes back through window 6 is block `t` of the projection of the input by the third weight matrix. -/
theorem flushed0_6 (c : Dev nD) (t : Fin cfg0.N) :
    (dat0 V c).flushed 6 t = ((cfg0.win 6).blk t).view.read (Elt Ideal) (projArr (V c main_arg0) (V c main_arg3)) := by
  show (cfg0.win 6).cut (grid0.coords t) ((dat0 V c).after 6 t) = _
  rw [after0_6]
  unfold out0_6
  rw [View.canon_unit_zero hz]
  simp only [View.ld_unit_zero (S := S32x4096) hz, View.ld_unit_zero (S := S4096x256) hz]
  funext y
  obtain ⟨p, q, rfl⟩ : ∃ (p : Fin 32) (q : Fin 256), y = ix2 p q := ⟨y 0, y 1, eq_ix2 y⟩
  show k0_pay4 (iblk0 V c 0 t) (iblk0 V c 3 t) (ix2 p q)
    = projArr (V c main_arg0) (V c main_arg3) (((cfg0.win 6).blk t).view.emb (ix2 p q))
  rw [emb0_6 t p q, pay4_eq]
  refine (proj_tile _ _ p q).trans ?_
  show _ = projAt (V c main_arg0) (V c main_arg3) p (col t q)
  unfold projAt
  exact Finset.sum_congr rfl fun d _ => by rw [blk0_x V c t p d, blk0_w3 V c t d q]

/-- Every index of the array is in the block of the point its column falls in. -/
theorem cover0_6 (i : S32x4096.Idx) :
    ∃ t : Fin cfg0.N, (cfg0.win 6).flush t = true ∧ i ∈ ((cfg0.win 6).blk t).view.set := by
  have h0 : (i 0).val < 32 := (i 0).isLt
  have h1 : (i 1).val < 4096 := (i 1).isLt
  obtain ⟨t, ht⟩ : ∃ t : Fin cfg0.N, t.val = (i 1).val / 256 := ⟨⟨(i 1).val / 256, by rw [show cfg0.N = 16 from N_0]; omega⟩, rfl⟩
  refine ⟨t, flush0_6 t, ?_⟩
  show i ∈ ((View.whole main_v4_2).slice (win0_6.rect t)).set
  rw [View.set_slice_whole, Rect.mem_set_unit]
  obtain ⟨_, _, _, _, _, _, _, _, e40, e41, e50, e51, e60, e61⟩ := idx0 t
  intro a
  match a with
  | ⟨0, _⟩ => show win0_6.index t (0 : Fin 2) * 32 ≤ (i 0).val ∧ (i 0).val < win0_6.index t (0 : Fin 2) * 32 + 32; omega
  | ⟨1, _⟩ => show win0_6.index t (1 : Fin 2) * 256 ≤ (i 1).val ∧ (i 1).val < win0_6.index t (1 : Fin 2) * 256 + 256; omega

/-- So the array ends holding the whole projection. -/
theorem final0_6 (c : Dev nD) : (dat0 V c).arrAt 6 cfg0.N = projArr (V c main_arg0) (V c main_arg3) :=
  (dat0 V c).arrAt_eq_of_cover 6 (projArr (V c main_arg0) (V c main_arg3)) (fun t _ => flushed0_6 V c t) cover0_6

end Region0

/-! ## The second region: one point, whole arrays -/

theorem idx1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

section Region1

variable (V : (c : Dev nD) → (b : Ref sig .tc) → Buf (Elt Ideal) ((c : Thread nD τ).loc b))

/-- Each input block is its whole array. -/
theorem blk1_0 (c : Dev nD) (t : Fin cfg1.N) : iblk1 V c 0 t = V c main_v4_1 := by
  funext y
  show V c main_v4_1 (((cfg1.win 0).blk t).view.emb y) = V c main_v4_1 y
  refine congrArg (V c main_v4_1) (funext fun a => Fin.ext ?_)
  obtain ⟨e00, e01, e10, e11, e20, e21, e30, e31, e40, e41⟩ := idx1 t
  match a with
  | ⟨0, _⟩ => show win1_0.index t (0 : Fin 2) * 32 + 1 * (y 0).val = (y 0).val; omega
  | ⟨1, _⟩ => show win1_0.index t (1 : Fin 2) * 4096 + 1 * (y 1).val = (y 1).val; omega

theorem blk1_1 (c : Dev nD) (t : Fin cfg1.N) : iblk1 V c 1 t = V c main_v4_0 := by
  funext y
  show V c main_v4_0 (((cfg1.win 1).blk t).view.emb y) = V c main_v4_0 y
  refine congrArg (V c main_v4_0) (funext fun a => Fin.ext ?_)
  obtain ⟨e00, e01, e10, e11, e20, e21, e30, e31, e40, e41⟩ := idx1 t
  match a with
  | ⟨0, _⟩ => show win1_1.index t (0 : Fin 2) * 32 + 1 * (y 0).val = (y 0).val; omega
  | ⟨1, _⟩ => show win1_1.index t (1 : Fin 2) * 4096 + 1 * (y 1).val = (y 1).val; omega

theorem blk1_2 (c : Dev nD) (t : Fin cfg1.N) : iblk1 V c 2 t = V c main_v4_2 := by
  funext y
  show V c main_v4_2 (((cfg1.win 2).blk t).view.emb y) = V c main_v4_2 y
  refine congrArg (V c main_v4_2) (funext fun a => Fin.ext ?_)
  obtain ⟨e00, e01, e10, e11, e20, e21, e30, e31, e40, e41⟩ := idx1 t
  match a with
  | ⟨0, _⟩ => show win1_2.index t (0 : Fin 2) * 32 + 1 * (y 0).val = (y 0).val; omega
  | ⟨1, _⟩ => show win1_2.index t (1 : Fin 2) * 4096 + 1 * (y 1).val = (y 1).val; omega

theorem blk1_3 (c : Dev nD) (t : Fin cfg1.N) : iblk1 V c 3 t = V c main_v3 := by
  funext y
  show V c main_v3 (((cfg1.win 3).blk t).view.emb y) = V c main_v3 y
  refine congrArg (V c main_v3) (funext fun a => Fin.ext ?_)
  obtain ⟨e00, e01, e10, e11, e20, e21, e30, e31, e40, e41⟩ := idx1 t
  match a with
  | ⟨0, _⟩ => show win1_3.index t (0 : Fin 2) * 32 + 1 * (y 0).val = (y 0).val; omega
  | ⟨1, _⟩ => show win1_3.index t (1 : Fin 2) * 32 + 1 * (y 1).val = (y 1).val; omega

/-- The output block's element `y` sits at `y`. -/
theorem emb1_4 (t : Fin cfg1.N) (y : S32x4096.Idx) : ((cfg1.win 4).blk t).view.emb y = y :=
  funext fun a => Fin.ext (by
    obtain ⟨_, _, _, _, _, _, _, _, e40, e41⟩ := idx1 t
    match a with
    | ⟨0, _⟩ => show win1_4.index t (0 : Fin 2) * 32 + 1 * (y 0).val = (y 0).val; omega
    | ⟨1, _⟩ => show win1_4.index t (1 : Fin 2) * 4096 + 1 * (y 1).val = (y 1).val; omega)

/-- The one point writes back the attention output of the arrays the region finds. -/
theorem flushed1_4 (c : Dev nD) (t : Fin cfg1.N) :
    (dat1 V c).flushed 4 t = ((cfg1.win 4).blk t).view.read (Elt Ideal)
      (attnArr (V c main_v4_1) (V c main_v4_0) (V c main_v4_2) (V c main_v3)) := by
  show (cfg1.win 4).cut (grid1.coords t) ((dat1 V c).after 4 t) = _
  rw [after1_4]
  unfold out1_4
  rw [View.canon_unit_zero hz]
  simp only [View.ld_unit_zero (S := S32x4096) hz, View.ld_unit_zero (S := S32x32) hz]
  rw [blk1_0, blk1_1, blk1_2, blk1_3]
  funext y
  show k1_pay1 (V c main_v4_1) (V c main_v4_0) (V c main_v3) (V c main_v4_2) y
    = attnArr (V c main_v4_1) (V c main_v4_0) (V c main_v4_2) (V c main_v3) (((cfg1.win 4).blk t).view.emb y)
  rw [emb1_4 t y]
  obtain ⟨p, q, rfl⟩ : ∃ (p : Fin 32) (q : Fin 4096), y = ix2 p q := ⟨y 0, y 1, eq_ix2 y⟩
  exact attn_body _ _ _ _ p q

theorem cover1_4 (i : S32x4096.Idx) :
    ∃ t : Fin cfg1.N, (cfg1.win 4).flush t = true ∧ i ∈ ((cfg1.win 4).blk t).view.set := by
  have h0 : (i 0).val < 32 := (i 0).isLt
  have h1 : (i 1).val < 4096 := (i 1).isLt
  refine ⟨t1_0, flush1_4 t1_0, ?_⟩
  show i ∈ ((View.whole main_v5).slice (win1_4.rect t1_0)).set
  rw [View.set_slice_whole, Rect.mem_set_unit]
  obtain ⟨_, _, _, _, _, _, _, _, e40, e41⟩ := idx1 t1_0
  intro a
  match a with
  | ⟨0, _⟩ => show win1_4.index t1_0 (0 : Fin 2) * 32 ≤ (i 0).val ∧ (i 0).val < win1_4.index t1_0 (0 : Fin 2) * 32 + 32; omega
  | ⟨1, _⟩ => show win1_4.index t1_0 (1 : Fin 2) * 4096 ≤ (i 1).val ∧ (i 1).val < win1_4.index t1_0 (1 : Fin 2) * 4096 + 4096; omega

theorem final1_4 (c : Dev nD) :
    (dat1 V c).arrAt 4 cfg1.N = attnArr (V c main_v4_1) (V c main_v4_0) (V c main_v4_2) (V c main_v3) :=
  (dat1 V c).arrAt_eq_of_cover 4 (attnArr (V c main_v4_1) (V c main_v4_0) (V c main_v4_2) (V c main_v3))
    (fun t _ => flushed1_4 V c t) cover1_4

end Region1

/-! ## The run's fold, read at the result -/

variable (m : (ℓ : Loc nD τ sig) → Buf (Elt Ideal) ℓ) (ρ : Dev nD → PrngReg)

/-- No host operation writes an argument: the first region finds the arguments as launched. -/
theorem entry_arg0 (c : Dev nD) : V5 m ρ c main_arg0 = m ((c : Thread nD τ).loc main_arg0) := by
  show StableHlo.after hostOps0_4 (StableHlo.after hostOps0_3 (StableHlo.after hostOps0_2 (StableHlo.after hostOps0_1
    (StableHlo.after hostOps0 (W0 m ρ c))))) (Proc.devRef .tc main_arg0) = _
  after_results
theorem entry_arg1 (c : Dev nD) : V5 m ρ c main_arg1 = m ((c : Thread nD τ).loc main_arg1) := by
  show StableHlo.after hostOps0_4 (StableHlo.after hostOps0_3 (StableHlo.after hostOps0_2 (StableHlo.after hostOps0_1
    (StableHlo.after hostOps0 (W0 m ρ c))))) (Proc.devRef .tc main_arg1) = _
  after_results
theorem entry_arg2 (c : Dev nD) : V5 m ρ c main_arg2 = m ((c : Thread nD τ).loc main_arg2) := by
  show StableHlo.after hostOps0_4 (StableHlo.after hostOps0_3 (StableHlo.after hostOps0_2 (StableHlo.after hostOps0_1
    (StableHlo.after hostOps0 (W0 m ρ c))))) (Proc.devRef .tc main_arg2) = _
  after_results
theorem entry_arg3 (c : Dev nD) : V5 m ρ c main_arg3 = m ((c : Thread nD τ).loc main_arg3) := by
  show StableHlo.after hostOps0_4 (StableHlo.after hostOps0_3 (StableHlo.after hostOps0_2 (StableHlo.after hostOps0_1
    (StableHlo.after hostOps0 (W0 m ρ c))))) (Proc.devRef .tc main_arg3) = _
  after_results

/-- The mask the host operations build is the reference's mask stage: the same operations on the same constants. -/
theorem entry_mask (c : Dev nD) : V5 m ρ c main_v3 = Cert.ReferenceIdeal.Read.val_main_v10 (F := Ideal) := by
  show StableHlo.after hostOps0_4 (StableHlo.after hostOps0_3 (StableHlo.after hostOps0_2 (StableHlo.after hostOps0_1
    (StableHlo.after hostOps0 (W0 m ρ c))))) (Proc.devRef .tc main_v3) = _
  after_results
  rfl

/-- After the first region: keys, queries, values are the projections; the mask is as the region found it. -/
theorem keys_arr (c : Dev nD) :
    V6 m ρ c main_v4_0 = projArr (m ((c : Thread nD τ).loc main_arg0)) (m ((c : Thread nD τ).loc main_arg1)) :=
  (W6_arr m ρ c 4).trans ((final0_4 (V5 m ρ) c).trans (by rw [entry_arg0, entry_arg1]))
theorem queries_arr (c : Dev nD) :
    V6 m ρ c main_v4_1 = projArr (m ((c : Thread nD τ).loc main_arg0)) (m ((c : Thread nD τ).loc main_arg2)) :=
  (W6_arr m ρ c 5).trans ((final0_5 (V5 m ρ) c).trans (by rw [entry_arg0, entry_arg2]))
theorem values_arr (c : Dev nD) :
    V6 m ρ c main_v4_2 = projArr (m ((c : Thread nD τ).loc main_arg0)) (m ((c : Thread nD τ).loc main_arg3)) :=
  (W6_arr m ρ c 6).trans ((final0_6 (V5 m ρ) c).trans (by rw [entry_arg0, entry_arg3]))
theorem mask_arr (c : Dev nD) : V6 m ρ c main_v3 = Cert.ReferenceIdeal.Read.val_main_v10 (F := Ideal) :=
  (W6_of_ne m ρ c main_v3 (by decide)).trans (entry_mask m ρ c)

/-- THE RESULT: the last boundary's contents at the result buffer are the specification of the launch arguments. -/
theorem result_value (c : Dev nD) :
    W7 m ρ c (Proc.devRef .tc main_v5)
      = attention (m ((c : Thread nD τ).loc main_arg0)) (m ((c : Thread nD τ).loc main_arg1))
          (m ((c : Thread nD τ).loc main_arg2)) (m ((c : Thread nD τ).loc main_arg3))
          (Cert.ReferenceIdeal.Read.val_main_v10 (F := Ideal)) :=
  (W7_arr m ρ c 4).trans ((final1_4 (V6 m ρ) c).trans (by
    rw [queries_arr, keys_arr, values_arr, mask_arr]; rfl))

end Cert.KernelIdeal.ResultValue

end
-- ==== Proof.RefIsSpec.lean ====
/-
  The reference computes the specification.

  Its program is read one operation at a time (the generated read-at-an-index lemmas): three matrix products give keys,
  queries and values; the keys are transposed and the queries multiplied into them, which at `(r, c)` is the inner product
  of query row `r` and key row `c`; the product is scaled, capped by the mask, and the row softmax and the final product
  follow. Each stage, read at coordinates, is the specification's stage of the same name.
-/
import proofs.«110793_j2869038154391_2_alg».proof.Proof.Gen.ReferenceIdeal.Read
import proofs.«110793_j2869038154391_2_alg».proof.Proof.Spec

noncomputable section

namespace Cert.ReferenceIdeal.IsSpec

open Cert.ReferenceIdeal Cert.ReferenceIdeal.Gen Cert.ReferenceIdeal.Read Idealize.ShloMosaic Idealize.ShloMosaic.ValueIdx Cert.Attn

variable (x0 : (⟨S32x4096, .f32⟩ : BufTy).Contents (Elt Ideal)) (x1 x2 x3 : (⟨S4096x4096, .f32⟩ : BufTy).Contents (Elt Ideal))

/-! ## The operand indices of the generated lemmas, by coordinates -/

theorem lidx0 (r : Fin 32) (c d : Fin 4096) : lidx_main_v0 (ix2 r c) d = ix2 r d :=
  funext fun a => Fin.ext (by match a with | ⟨0, _⟩ => rfl | ⟨1, _⟩ => rfl)
theorem ridx0 (r : Fin 32) (c d : Fin 4096) : ridx_main_v0 (ix2 r c) d = ix2 d c :=
  funext fun a => Fin.ext (by match a with | ⟨0, _⟩ => rfl | ⟨1, _⟩ => rfl)
theorem lidx4 (r c : Fin 32) (d : Fin 4096) : lidx_main_v4 (ix2 r c) d = ix2 r d :=
  funext fun a => Fin.ext (by match a with | ⟨0, _⟩ => rfl | ⟨1, _⟩ => rfl)
theorem ridx4 (r c : Fin 32) (d : Fin 4096) : idx_main_v3 (ridx_main_v4 (ix2 r c) d) = ix2 c d :=
  funext fun a => Fin.ext (by match a with | ⟨0, _⟩ => rfl | ⟨1, _⟩ => rfl)
theorem lidx23 (r : Fin 32) (c : Fin 4096) (j : Fin 32) : lidx_main_v23 (ix2 r c) j = ix2 r j :=
  funext fun a => Fin.ext (by match a with | ⟨0, _⟩ => rfl | ⟨1, _⟩ => rfl)
theorem ridx23 (r : Fin 32) (c : Fin 4096) (j : Fin 32) : ridx_main_v23 (ix2 r c) j = ix2 j c :=
  funext fun a => Fin.ext (by match a with | ⟨0, _⟩ => rfl | ⟨1, _⟩ => rfl)
theorem idx19 (r c : Fin 32) : idx_main_v19 (ix1 r) c = ix2 r c :=
  funext fun a => Fin.ext (by match a with | ⟨0, _⟩ => rfl | ⟨1, _⟩ => rfl)
theorem idx_col (r c : Fin 32) : idx_main_v15 (idx_main_v16 (ix2 r c)) = ix1 r :=
  funext fun a => Fin.ext (by match a with | ⟨0, _⟩ => rfl)

/-! ## The projections -/

/-- Keys (and, the same operation on other weights, queries and values) at `(r, c)`. -/
theorem keys_apply (w : (⟨S4096x4096, .f32⟩ : BufTy).Contents (Elt Ideal)) (r : Fin 32) (c : Fin 4096) :
    val_main_v0 (F := Ideal) x0 w (ix2 r c) = projAt x0 w r c := by
  rw [val_main_v0_apply]
  unfold projAt
  exact Finset.sum_congr rfl fun d _ => by rw [lidx0, ridx0]

theorem queries_eq : val_main_v1 (F := Ideal) x0 x2 = val_main_v0 (F := Ideal) x0 x2 := rfl
theorem values_eq : val_main_v2 (F := Ideal) x0 x3 = val_main_v0 (F := Ideal) x0 x3 := rfl

theorem proj_eq (w : (⟨S4096x4096, .f32⟩ : BufTy).Contents (Elt Ideal)) :
    val_main_v0 (F := Ideal) x0 w = arr2 (projAt x0 w) :=
  funext fun i => by
    obtain ⟨r, c, rfl⟩ : ∃ (r : Fin 32) (c : Fin 4096), i = ix2 r c := ⟨i 0, i 1, eq_ix2 i⟩
    exact keys_apply x0 w r c

/-! ## Scores and softmax -/

/-- The capped, scaled scores at `(r, c)`. -/
theorem scores_apply (r c : Fin 32) :
    val_main_v11 (F := Ideal) x0 x1 x2 (ix2 r c)
      = scoreAt (val_main_v1 (F := Ideal) x0 x2) (val_main_v0 (F := Ideal) x0 x1) (val_main_v10 (F := Ideal)) r c := by
  rw [val_main_v11_apply, val_main_v6_apply, val_main_v4_apply, val_main_v5_apply, val_main_cst_apply]
  unfold scoreAt
  show min ((∑ k : Fin 4096, _) * Ideal.ofBits .f32 0x3B800000#32) _ = _
  refine congrArg (fun t => min (t * Ideal.ofBits .f32 0x3B800000#32) _) ?_
  refine Finset.sum_congr rfl fun d _ => ?_
  rw [val_main_v3_apply, lidx4, ridx4]

/-- The row maximum. -/
theorem rowMax_apply (r : Fin 32) :
    val_main_v14 (F := Ideal) x0 x1 x2 (ix1 r) = rowMax (coords (val_main_v11 (F := Ideal) x0 x1 x2)) r := by
  rw [val_main_v14_apply, val_main_v13_apply, val_main_cst_3_apply]
  unfold rowMax
  show max (Ideal.ofBits .f32 0xFF800000#32) (val_main_v12 (F := Ideal) x0 x1 x2 (ix1 r)) = _
  refine congrArg (max _) ?_
  unfold val_main_v12
  have hred : S32x32.Reduces [1] S32 := by decide
  refine (Host.reduce_eq_fold_single (s := S32x32) (t := S32) (a := (1 : Fin 2)) (u := S_)
    (FloatOps.maximumf (F := Ideal) (φ := .f32)) (val_main_v11 (F := Ideal) x0 x1 x2 : S32x32.Idx → Ideal .f32)
    (val_main_cst_2 (F := Ideal) : S_.Idx → Ideal .f32) reducesTo_S32x32_S32_d1 hred h_S_ (ix1 r)).trans ?_
  refine congrArg (fun f : Fin 32 → EReal => (Finset.univ : Finset (Fin 32)).fold max (Ideal.ofBits .f32 0xFF800000#32) f) ?_
  funext c
  exact congrArg (val_main_v11 (F := Ideal) x0 x1 x2) (funext fun a => Fin.ext (by match a with | ⟨0, _⟩ => rfl | ⟨1, _⟩ => rfl))

/-- The exponentials. -/
theorem exp_apply (r c : Fin 32) :
    val_main_v18 (F := Ideal) x0 x1 x2 (ix2 r c) = expAt (coords (val_main_v11 (F := Ideal) x0 x1 x2)) r c := by
  rw [val_main_v18_apply, val_main_v17_apply, val_main_v16_apply, val_main_v15_apply, idx_col, rowMax_apply]
  rfl

/-- The softmax weights. -/
theorem weights_apply (r c : Fin 32) :
    val_main_v22 (F := Ideal) x0 x1 x2 (ix2 r c) = weightAt (coords (val_main_v11 (F := Ideal) x0 x1 x2)) r c := by
  rw [val_main_v22_apply, val_main_v21_apply, val_main_v20_apply]
  rw [show idx_main_v20 (idx_main_v21 (ix2 r c)) = ix1 r from
    funext fun a => Fin.ext (by match a with | ⟨0, _⟩ => rfl)]
  rw [val_main_v19_apply, val_main_cst_4_apply, exp_apply]
  unfold weightAt
  show Ideal.div _ (Ideal.ofBits .f32 0x00000000#32 + _) = _
  rw [Ideal.ofBits_zero_f32, zero_add]
  refine congrArg (Ideal.div _) (Finset.sum_congr rfl fun j _ => ?_)
  rw [idx19, exp_apply]

/-! ## The whole -/

/-- The reference's result is the specification of its four arguments, the mask being its own mask stage. -/
theorem result_eq : val_main_v23 (F := Ideal) x0 x1 x2 x3 = attention x0 x1 x2 x3 (val_main_v10 (F := Ideal)) := by
  funext i
  obtain ⟨r, c, rfl⟩ : ∃ (r : Fin 32) (c : Fin 4096), i = ix2 r c := ⟨i 0, i 1, eq_ix2 i⟩
  rw [val_main_v23_apply]
  show _ = outAt (arr2 (projAt x0 x2)) (arr2 (projAt x0 x1)) (arr2 (projAt x0 x3)) (val_main_v10 (F := Ideal)) r c
  unfold outAt
  refine Finset.sum_congr rfl fun j _ => ?_
  rw [lidx23, ridx23, weights_apply, values_eq, proj_eq x0 x3]
  have hs : coords (val_main_v11 (F := Ideal) x0 x1 x2)
      = scoreAt (arr2 (projAt x0 x2)) (arr2 (projAt x0 x1)) (val_main_v10 (F := Ideal)) :=
    funext fun a => funext fun b => by
      show val_main_v11 (F := Ideal) x0 x1 x2 (ix2 a b) = _
      rw [scores_apply, queries_eq, proj_eq x0 x2, proj_eq x0 x1]
  rw [hs]

end Cert.ReferenceIdeal.IsSpec

end
-- ==== Proof.lean ====
/-
  Causal (masked) softmax attention over a window of 32 positions: a tiled kernel against its plain reference, equal on the
  extended reals.

  Both programs compute keys, queries and values as `x · w`, score every query row against every key row by their inner
  product times 2⁻⁸, cap the scores by a triangular mask of ±10⁵, take the softmax of each row and multiply the weights into
  the values. The kernel does the projections in sixteen column tiles of 256 features (each output element is still the full
  sum over the 4096 input features, so no sum is re-associated), rounds operands to bf16 on the way into a product (the
  identity on the extended reals), and contracts queries with keys directly where the reference transposes the keys first.
  Both sides are shown to be one function of the four arguments, `Cert.Attn.attention`; sums are only ever compared term by
  term over the same index, so the precondition (finite inputs) is never opened.

  The three frames are the generated ones (the reference's is its generated run with the result dropped); the idealization
  rewrote nothing, so there is nothing to preserve.
-/
import proofs.«110793_j2869038154391_2_alg».proof.Defs
import proofs.«110793_j2869038154391_2_alg».proof.Proof.Gen.Kernel
import proofs.«110793_j2869038154391_2_alg».proof.Proof.Gen.Kernel.Skeleton
import proofs.«110793_j2869038154391_2_alg».proof.Proof.Gen.Kernel.Launch
import proofs.«110793_j2869038154391_2_alg».proof.Proof.Gen.Kernel.Points
import proofs.«110793_j2869038154391_2_alg».proof.Proof.Gen.Kernel.Frame
import proofs.«110793_j2869038154391_2_alg».proof.Proof.Gen.KernelIdeal
import proofs.«110793_j2869038154391_2_alg».proof.Proof.Gen.KernelIdeal.Skeleton
import proofs.«110793_j2869038154391_2_alg».proof.Proof.Gen.KernelIdeal.Launch
import proofs.«110793_j2869038154391_2_alg».proof.Proof.Gen.KernelIdeal.Points
import proofs.«110793_j2869038154391_2_alg».proof.Proof.Gen.KernelIdeal.Frame
import proofs.«110793_j2869038154391_2_alg».proof.Proof.Gen.ReferenceIdeal
import proofs.«110793_j2869038154391_2_alg».proof.Proof.Gen.ReferenceIdeal.Run
import proofs.«110793_j2869038154391_2_alg».proof.Proof.Gen.ReferenceIdeal.Read
import proofs.«110793_j2869038154391_2_alg».proof.Proof.Gen.Pre_finite_inputs
import proofs.«110793_j2869038154391_2_alg».proof.Proof.KernelRun
import proofs.«110793_j2869038154391_2_alg».proof.Proof.KernelValue
import proofs.«110793_j2869038154391_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the attention of those arguments in their result
    buffers: the kernel by its run's fold read at the result, the reference by its run read stage by stage. -/
theorem algebraic : Cert.algebraic_KernelIdeal_ReferenceIdeal := by
  intro m ρ m' ρ' _ hagree
  refine ⟨fun c => Cert.Attn.attention
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (Cert.ReferenceIdeal.Read.val_main_v10 (F := Ideal)), ?_, ?_⟩
  · exact (θ_run Cert.KernelIdeal.defs _ _).mono
      (fun r h c => ⟨(h c).1.trans (Cert.KernelIdeal.ResultValue.result_value m ρ c), (h c).2⟩)
      (Cert.KernelIdeal.ResultRun.run_result (F := Ideal) m ρ)
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v23_eq m' c).trans
      ((Cert.ReferenceIdeal.IsSpec.result_eq _ _ _ _).trans ?_))
    rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
